-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x10x10x5 : Shape := ⟨4, ![65536, 10, 10, 5]⟩
abbrev S_ : Shape := ⟨0, ![]⟩

class Facts : Prop where
  bcast_S_S65536x10x10x5 : S_.BroadcastsInDim S65536x10x10x5 (![] : Fin 0 → Fin S65536x10x10x5.rank)
  reducesTo_S65536x10x10x5_S_d0_1_2_3 : S65536x10x10x5.ReducesTo [0, 1, 2, 3] S_
  h_S_ : 0 < S_.numel

variable [Facts]

def fn {F : FTy → Type} [FloatOps F] (main_arg0 : FVec F S65536x10x10x5 .f32) (main_arg1 : FVec F S65536x10x10x5 .f32) : IVec S_ 1 :=
  let main_v0 : FVec F S65536x10x10x5 .f32 := Host.absf main_arg0
  let main_cst : FVec F S_ .f32 := constant S_ .f32 0x7F800000#32
  let main_v1 : FVec F S65536x10x10x5 .f32 := broadcastInDim S65536x10x10x5 ![] bcast_S_S65536x10x10x5 main_cst
  let main_v2 : IVec S65536x10x10x5 1 := cmpf .olt main_v0 main_v1
  let main_c : IVec S_ 1 := constantI S_ 1 1#1
  let main_v3 : IVec S_ 1 := (fun x v => Host.reduce IntOp.andi x v reducesTo_S65536x10x10x5_S_d0_1_2_3 h_S_) main_v2 main_c
  let main_v4 : FVec F S65536x10x10x5 .f32 := Host.absf main_arg1
  let main_cst_0 : FVec F S_ .f32 := constant S_ .f32 0x7F800000#32
  let main_v5 : FVec F S65536x10x10x5 .f32 := broadcastInDim S65536x10x10x5 ![] bcast_S_S65536x10x10x5 main_cst_0
  let main_v6 : IVec S65536x10x10x5 1 := cmpf .olt main_v4 main_v5
  let main_c_1 : IVec S_ 1 := constantI S_ 1 1#1
  let main_v7 : IVec S_ 1 := (fun x v => Host.reduce IntOp.andi x v reducesTo_S65536x10x10x5_S_d0_1_2_3 h_S_) main_v6 main_c_1
  let main_v8 : IVec S_ 1 := andi main_v3 main_v7
  main_v8
-- ==== Kernel.lean ====
abbrev S65536x10x10x5 : Shape := ⟨4, ![65536, 10, 10, 5]⟩
abbrev S6553600x5 : Shape := ⟨2, ![6553600, 5]⟩
abbrev S1x128 : Shape := ⟨2, ![1, 128]⟩
abbrev S4096x5 : Shape := ⟨2, ![4096, 5]⟩
abbrev S4096x1 : Shape := ⟨2, ![4096, 1]⟩
abbrev S4096x4 : Shape := ⟨2, ![4096, 4]⟩
abbrev S4096 : Shape := ⟨1, ![4096]⟩
abbrev S1 : Shape := ⟨1, ![1]⟩
abbrev S1x1 : Shape := ⟨2, ![1, 1]⟩
abbrev S_ : Shape := ⟨0, ![]⟩

abbrev nBuf : Space → Nat
  | .hbm => 13
  | .vmem => 6
  | .smem => 0
  | _ => 0

abbrev bufTy : (tb : Table) → Fin (tcTables nBuf tb) → BufTy
  | .hbm, ⟨0, _⟩ => ⟨S65536x10x10x5, .f32⟩
  | .hbm, ⟨1, _⟩ => ⟨S65536x10x10x5, .f32⟩
  | .hbm, ⟨2, _⟩ => ⟨S6553600x5, .f32⟩
  | .hbm, ⟨3, _⟩ => ⟨S6553600x5, .f32⟩
  | .hbm, ⟨4, _⟩ => ⟨S1x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4096x5, .f32⟩
  | .local _ .vmem, ⟨1, _⟩ => ⟨S4096x5, .f32⟩
  | .local _ .vmem, ⟨2, _⟩ => ⟨S4096x5, .f32⟩
  | .local _ .vmem, ⟨3, _⟩ => ⟨S4096x5, .f32⟩
  | .local _ .vmem, ⟨4, _⟩ => ⟨S1x128, .f32⟩
  | .local _ .vmem, ⟨5, _⟩ => ⟨S1x128, .f32⟩
  | _, _ => ⟨S65536x10x10x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1600], ![false]⟩

def k0_cond2 (i : grid0.Coords) : BitVec 1 :=
  let arg0 : BitVec 32 := BitVec.ofNat 32 (i 0).val
  let c1599_i32 : BitVec 32 := 1599#32
  let v61 : BitVec 1 := Scalar.cmpi .eq arg0 c1599_i32
  let v62 : BitVec 32 := Scalar.extui v61
  let c0_i32_21 : BitVec 32 := 0#32
  let v63 : BitVec 1 := Scalar.cmpi .ne v62 c0_i32_21
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S65536x10x10x5_S6553600x5 : S65536x10x10x5.ShapeCasts S6553600x5
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x5_S4096x5_0_0 : ∀ a, (![0, 0] : Fin 2 → Nat) a + S4096x5.size a ≤ S4096x5.size a
  h_S4096x5 : 0 < S4096x5.numel
  shapeCasts_S4096x5_S4096x5 : S4096x5.ShapeCasts S4096x5
  slices_S4096x5_o0_0_S4096x1 : S4096x5.Slices ![0, 0] S4096x1
  slices_S4096x5_o0_1_S4096x4 : S4096x5.Slices ![0, 1] S4096x4
  reduces_S4096x4_S4096 : S4096x4.Reduces [1] S4096
  shapeCasts_S4096_S4096x1 : S4096.ShapeCasts S4096x1
  reduces_S4096x1_S1 : S4096x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x5.size a ≤ S6553600x5.size a
  hwx0_0 : ∀ i : grid0.Coords, EltTy.bits .f32 = 32 ∨ (Rect.block (s := S6553600x5) S4096x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x5.size a ≤ S6553600x5.size a
  hwx0_1 : ∀ i : grid0.Coords, EltTy.bits .f32 = 32 ∨ (Rect.block (s := S6553600x5) S4096x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

abbrev win0_0 : Pipeline.Window sig grid0 :=
  Pipeline.Window.ofSpec (Memref.whole main_v0) S4096x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x10x10x5 : Shape := ⟨4, ![65536, 10, 10, 5]⟩
abbrev S65536x10x10x1 : Shape := ⟨4, ![65536, 10, 10, 1]⟩
abbrev S65536x10x10 : Shape := ⟨3, ![65536, 10, 10]⟩
abbrev S_ : Shape := ⟨0, ![]⟩
abbrev S65536x10x10x4 : Shape := ⟨4, ![65536, 10, 10, 4]⟩

abbrev nBuf : Space → Nat
  | .hbm => 43
  | .vmem => 0
  | .smem => 0
  | _ => 0

abbrev bufTy : (tb : Table) → Fin (tcTables nBuf tb) → BufTy
  | .hbm, ⟨0, _⟩ => ⟨S65536x10x10x5, .f32⟩
  | .hbm, ⟨1, _⟩ => ⟨S65536x10x10x5, .f32⟩
  | .hbm, ⟨2, _⟩ => ⟨S65536x10x10x1, .f32⟩
  | .hbm, ⟨3, _⟩ => ⟨S65536x10x10, .f32⟩
  | .hbm, ⟨4, _⟩ => ⟨S65536x10x10x1, .f32⟩
  | .hbm, ⟨5, _⟩ => ⟨S65536x10x10, .f32⟩
  | .hbm, ⟨6, _⟩ => ⟨S65536x10x10, .f32⟩
  | .hbm, ⟨7, _⟩ => ⟨S65536x10x10, .f32⟩
  | .hbm, ⟨8, _⟩ => ⟨S65536x10x10x1, .f32⟩
  | .hbm, ⟨9, _⟩ => ⟨S65536x10x10, .f32⟩
  | .hbm, ⟨10, _⟩ => ⟨S_, .f32⟩
  | .hbm, ⟨11, _⟩ => ⟨S65536x10x10, .f32⟩
  | .hbm, ⟨12, _⟩ => ⟨S65536x10x10, .i1⟩
  | .hbm, ⟨13, _⟩ => ⟨S65536x10x10x4, .f32⟩
  | .hbm, ⟨14, _⟩ => ⟨S65536x10x10x4, .f32⟩
  | .hbm, ⟨15, _⟩ => ⟨S65536x10x10x4, .f32⟩
  | .hbm, ⟨16, _⟩ => ⟨S65536x10x10x4, .f32⟩
  | .hbm, ⟨17, _⟩ => ⟨S_, .f32⟩
  | .hbm, ⟨18, _⟩ => ⟨S65536x10x10, .f32⟩
  | .hbm, ⟨19, _⟩ => ⟨S_, .f32⟩
  | .hbm, ⟨20, _⟩ => ⟨S_, .f32⟩
  | .hbm, ⟨21, _⟩ => ⟨S65536x10x10, .f32⟩
  | .hbm, ⟨22, _⟩ => ⟨S65536x10x10, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S65536x10x10, .f32⟩
  | .hbm, ⟨30, _⟩ => ⟨S65536x10x10, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S65536x10x10, .f32⟩
  | .hbm, ⟨36, _⟩ => ⟨S65536x10x10, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S65536x10x10x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_call2_v0 : Ref sig .tc := ⟨.hbm, 34, rfl⟩
abbrev main_call2_v1 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  slices_S65536x10x10x5_S65536x10x10x1_0_0_0_0 : S65536x10x10x5.Slices ![0, 0, 0, 0] S65536x10x10x1
  shapeCasts_S65536x10x10x1_S65536x10x10 : S65536x10x10x1.ShapeCasts S65536x10x10
  bcast_S_S65536x10x10 : S_.BroadcastsInDim S65536x10x10 (![] : Fin 0 → Fin S65536x10x10.rank)
  slices_S65536x10x10x5_S65536x10x10x4_0_0_0_1 : S65536x10x10x5.Slices ![0, 0, 0, 1] S65536x10x10x4
  reducesTo_S65536x10x10x4_S65536x10x10_d3 : S65536x10x10x4.ReducesTo [3] S65536x10x10
  h_S_ : 0 < S_.numel
  reducesTo_S65536x10x10_S_d0_1_2 : S65536x10x10.ReducesTo [0, 1, 2] S_

variable [Facts₀]

class Facts : Prop extends Facts₀ where

variable [Facts]
-- ==== Proof.Pieces.lean ====
/-
  What one grid point leaves in the accumulator, as a value.

  The kernel keeps a [1,128] accumulator in scratch memory across its 1600 grid points.  At every point it loads
  the point's two [4096,5] input blocks `x0` (predictions) and `x1` (targets), forms one [1,128] contribution from
  them, and stores accumulator + contribution back; the first point zeroes the accumulator first, the last point
  also copies the new accumulator to the output block.  `step x0 x1 acc` is that stored value as one pure term of
  the two blocks and the previous accumulator.  The four lemmas say that each of the three control cases leaves
  exactly `step` in the scratch (from the zero block in the first case), and that the last case leaves the same
  value in the output block.
-/
import proofs.«140411_j43190191128633_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The accumulator after one point: the previous accumulator plus the point's contribution (lane 0: five times
    the block's masked box term; lane 1: the masked confidence term; lane 2: half the unmasked confidence term). -/
def step (x0 x1 : Vec F S4096x5 .f32) (acc : Vec F S1x128 .f32) : Vec F S1x128 .f32 :=
  k0_pay1 (k0_pay8 x0 x1) (k0_pay9 x0 x1) (iota .tc S1x128 32 [1] iota_S1x128_d1_w32) k0_pay10
    (Scalar.ofBits .f32 0x00000000#32) (k0_pay11 x0 x1) acc

/-- The zero block the first point stores before accumulating. -/
abbrev zero : Vec F S1x128 .f32 := k0_pay2

/-- A middle point leaves `step` of its blocks and the previous accumulator in the scratch. -/
theorem scratch_B (c : Dev nD) (i : grid0.Coords) (a1 : Memref sig .tc .vmem S4096x5 .f32) (h1 : a1.IsWhole)
    (a2 : Memref sig .tc .vmem S4096x5 .f32) (h2 : a2.IsWhole) (a3 : Memref sig .tc .vmem S1x128 .f32) (h3 : a3.IsWhole)
    (a4 : Memref sig .tc .vmem S1x128 .f32) (h4 : a4.IsWhole) (hc0 : ¬cond0_0 i) (hc1 : ¬cond0_1 i)
    (x0 x1 : Vec F S4096x5 .f32) (xs : Vec F S1x128 .f32) :
    sout0_B_0 c i a1 h1 a2 h2 a3 h3 a4 h4 hc0 hc1 x0 x1 xs = step x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S4096x5) hz,
    View.ld_unit_zero (S := S1x128) hz]
  rfl

/-- The last point leaves the same value in the scratch … -/
theorem scratch_C (c : Dev nD) (i : grid0.Coords) (a1 : Memref sig .tc .vmem S4096x5 .f32) (h1 : a1.IsWhole)
    (a2 : Memref sig .tc .vmem S4096x5 .f32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i)
    (x0 x1 : Vec F S4096x5 .f32) (xs : Vec F S1x128 .f32) :
    sout0_C_0 c i a1 h1 a2 h2 a3 h3 a4 h4 hc0 hc1 x0 x1 xs = step x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S4096x5) hz,
    View.ld_unit_zero (S := S1x128) hz]
  rfl

/-- … and copies it to the output block. -/
theorem output_C (c : Dev nD) (i : grid0.Coords) (a1 : Memref sig .tc .vmem S4096x5 .f32) (h1 : a1.IsWhole)
    (a2 : Memref sig .tc .vmem S4096x5 .f32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i)
    (x0 x1 : Vec F S4096x5 .f32) (xs : Vec F S1x128 .f32) :
    out0_C_2 c i a1 h1 a2 h2 a3 h3 a4 h4 hc0 hc1 x0 x1 xs = step x0 x1 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x128) _ hz]
  simp only [View.readAt_eq_ld, h1.read_unread, h2.read_unread, h4.read_unread, View.ld_unit_zero (S := S4096x5) hz,
    View.ld_unit_zero (S := S1x128) hz]
  rfl

/-- The first point zeroes the accumulator and leaves `step` of its blocks from the zero block. -/
theorem scratch_A (c : Dev nD) (i : grid0.Coords) (a1 : Memref sig .tc .vmem S4096x5 .f32) (h1 : a1.IsWhole)
    (a2 : Memref sig .tc .vmem S4096x5 .f32) (h2 : a2.IsWhole) (a3 : Memref sig .tc .vmem S1x128 .f32) (h3 : a3.IsWhole)
    (a4 : Memref sig .tc .vmem S1x128 .f32) (h4 : a4.IsWhole) (hc0 : cond0_0 i) (hc1 : ¬cond0_1 i)
    (x0 x1 : Vec F S4096x5 .f32) :
    sout0_A_0 c i a1 h1 a2 h2 a3 h3 a4 h4 hc0 hc1 x0 x1 = step x0 x1 zero := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x128) hz, View.readCov_unit_zero (S := S1x128) _ hz]
  simp only [View.readAt_eq_ld, h1.read_unread, h2.read_unread, View.ld_unit_zero (S := S4096x5) hz]
  rfl

end Cert.KernelIdeal.Acc

end
-- ==== Proof.Running.lean ====
/-
  The accumulator after each grid point.

  `acc n` is the running accumulator after point `n`: `step` of point 0's blocks from the zero block, then
  `step` of each later point's blocks from the accumulator before it.  What the frame's run finds in the scratch
  after point `n` is `acc n` (by induction on the point: the first point is the zeroing case, every later point
  a middle point or the last one), and what the last point leaves in the output block is `acc 1599`.
-/
import proofs.«140411_j43190191128633_2_alg».proof.Proof.Pieces

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The running accumulator after point `n`. -/
def acc (c : Dev nD) : (n : ℕ) → n < cfg0.N → Vec F S1x128 .f32
  | 0, h => step (iblk m c 0 ⟨0, h⟩) (iblk m c 1 ⟨0, h⟩) zero
  | n + 1, h => step (iblk m c 0 ⟨n + 1, h⟩) (iblk m c 1 ⟨n + 1, h⟩) (acc c n (Nat.lt_of_succ_lt h))

theorem acc_zero (c : Dev nD) (h : 0 < cfg0.N) :
    acc m c 0 h = step (iblk m c 0 ⟨0, h⟩) (iblk m c 1 ⟨0, h⟩) zero := by rw [acc]

theorem acc_succ (c : Dev nD) (n : ℕ) (h : n + 1 < cfg0.N) :
    acc m c (n + 1) h = step (iblk m c 0 ⟨n + 1, h⟩) (iblk m c 1 ⟨n + 1, h⟩) (acc m c n (Nat.lt_of_succ_lt h)) := by rw [acc]

/-- The scratch component of the frame's point-by-point contents depends on the point only. -/
theorem scratch_congr (c : Dev nD) (k k' : ℕ) (hk : k < cfg0.N) (hk' : k' < cfg0.N) (e : k = k') :
    (outsAt0 m c k hk).2 = (outsAt0 m c k' hk').2 := by subst e; rfl

/-- The scratch after point `n` holds the running accumulator. -/
theorem scratch_eq (c : Dev nD) : ∀ (n : ℕ) (h : n < cfg0.N), (outsAt0 m c n h).2 = acc m c n h
  | 0, h => by
    have e := congrArg Prod.snd (outsAt0_A m c ⟨0, h⟩ rfl (by dsimp only; omega))
    refine e.trans ?_
    rw [acc_zero]
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) ((hcond0_0 ⟨0, h⟩).mpr rfl) (fun hh => absurd ((hcond0_1 ⟨0, h⟩).mp hh) (by dsimp only; omega))
      (iblk m c 0 ⟨0, h⟩) (iblk m c 1 ⟨0, h⟩)
  | n + 1, h => by
    have hN : n + 1 < 1600 := lt_of_lt_of_eq h (show cfg0.N = 1600 from N_0)
    have h0 : ¬(⟨n + 1, h⟩ : Fin cfg0.N).val % 1600 = 0 := by dsimp only; omega
    have ih := scratch_eq c n (Nat.lt_of_succ_lt h)
    have hprev : (outsAt0 m c ((⟨n + 1, h⟩ : Fin cfg0.N).val - 1) (Nat.lt_of_le_of_lt (Nat.sub_le _ _) (⟨n + 1, h⟩ : Fin cfg0.N).isLt)).2
        = acc m c n (Nat.lt_of_succ_lt h) :=
      (scratch_congr m c ((⟨n + 1, h⟩ : Fin cfg0.N).val - 1) n _ (Nat.lt_of_succ_lt h) (Nat.add_sub_cancel n 1)).trans ih
    rw [acc_succ]
    by_cases h1 : (⟨n + 1, h⟩ : Fin cfg0.N).val % 1600 = 1599
    · have e := congrArg Prod.snd (outsAt0_C m c ⟨n + 1, h⟩ h0 h1)
      refine e.trans ?_
      refine (scratch_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => h0 ((hcond0_0 ⟨n + 1, h⟩).mp hh))
        ((hcond0_1 ⟨n + 1, h⟩).mpr h1) (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2).trans ?_
      exact congrArg (step (iblk m c 0 ⟨n + 1, h⟩) (iblk m c 1 ⟨n + 1, h⟩)) hprev
    · have e := congrArg Prod.snd (outsAt0_B m c ⟨n + 1, h⟩ h0 h1)
      refine e.trans ?_
      refine (scratch_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => h0 ((hcond0_0 ⟨n + 1, h⟩).mp hh))
        (fun hh => h1 ((hcond0_1 ⟨n + 1, h⟩).mp hh)) (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt)).2).trans ?_
      exact congrArg (step (iblk m c 0 ⟨n + 1, h⟩) (iblk m c 1 ⟨n + 1, h⟩)) hprev

/-- The last point. -/
theorem last_lt : 1599 < cfg0.N := by rw [show cfg0.N = 1600 from N_0]; decide

/-- The output block after the last point holds the final accumulator. -/
theorem output_eq (c : Dev nD) : (outsAt0 m c 1599 last_lt).1 = acc m c 1599 last_lt := by
  have h0 : ¬(⟨1599, last_lt⟩ : Fin cfg0.N).val % 1600 = 0 := by dsimp only; omega
  have h1 : (⟨1599, last_lt⟩ : Fin cfg0.N).val % 1600 = 1599 := by dsimp only
  have hprev : (outsAt0 m c ((⟨1599, last_lt⟩ : Fin cfg0.N).val - 1) (Nat.lt_of_le_of_lt (Nat.sub_le _ _) (⟨1599, last_lt⟩ : Fin cfg0.N).isLt)).2
      = acc m c 1598 (Nat.lt_of_succ_lt last_lt) :=
    (scratch_congr m c _ 1598 _ (Nat.lt_of_succ_lt last_lt) rfl).trans (scratch_eq m c 1598 _)
  have e := congrArg Prod.fst (outsAt0_C m c ⟨1599, last_lt⟩ h0 h1)
  refine e.trans ?_
  rw [acc_succ m c 1598 last_lt]
  refine (output_C c (grid0.coords ⟨1599, last_lt⟩) (ms0_0 ⟨1599, last_lt⟩) (hs0_0 ⟨1599, last_lt⟩) (ms0_1 ⟨1599, last_lt⟩)
    (hs0_1 ⟨1599, last_lt⟩) (ms0_2 ⟨1599, last_lt⟩) (hs0_2 ⟨1599, last_lt⟩) scM0_0 (Memref.isWhole_whole _)
    (fun hh => h0 ((hcond0_0 ⟨1599, last_lt⟩).mp hh)) ((hcond0_1 ⟨1599, last_lt⟩).mpr h1)
    (iblk m c 0 ⟨1599, last_lt⟩) (iblk m c 1 ⟨1599, last_lt⟩)
    (outsAt0 m c ((⟨1599, last_lt⟩ : Fin cfg0.N).val - 1) (Nat.lt_of_le_of_lt (Nat.sub_le _ _) (⟨1599, last_lt⟩ : Fin cfg0.N).isLt)).2).trans ?_
  exact congrArg (step (iblk m c 0 ⟨1599, last_lt⟩) (iblk m c 1 ⟨1599, last_lt⟩)) hprev

end Cert.KernelIdeal.Acc

end
-- ==== Proof.Final.lean ====
/-
  The kernel's results as values.

  The output window's one block is the whole [1,128] result array and is written back once, after the last grid
  point, so the array ends holding the final accumulator.  The host lines after the kernel read its lanes 0, 1, 2
  as the three scalar losses and add them up for the total.
-/
import proofs.«140411_j43190191128633_2_alg».proof.Proof.Running
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The last grid point. -/
abbrev tLast : Fin cfg0.N := ⟨1599, last_lt⟩

/-- The result array's final contents: the accumulator after the last point. -/
abbrev result (c : Dev nD) : Buf (Elt F) ((c : Thread nD τ).loc main_v2) := acc m c 1599 last_lt

/-- The output block after the last point, stated at the last point's own name. -/
theorem output_last (c : Dev nD) : (outsAt0 m c tLast.val tLast.isLt).1 = acc m c 1599 last_lt := output_eq m c

/-- The one write-back, after the last point, writes the final accumulator: the block is the whole array. -/
theorem flushed_eq (c : Dev nD) (t : Fin cfg0.N) (hf : (cfg0.win 2).flush t = true) :
    (dats m 0 c).flushed 2 t = ((cfg0.win 2).blk t).view.read (Elt F) (result m c) := by
  have hN : cfg0.N = 1600 := N_0
  have h3 : t.val = 1599 := by have := (flush0_2 t).mp hf; have := t.isLt; omega
  obtain rfl : t = tLast := Fin.ext h3
  show (cfg0.win 2).cut (grid0.coords tLast) ((dats m 0 c).after 2 tLast) = _
  rw [after0_2, output_last m c]
  have hz' : (fun a => win0_2.index tLast a * main_v2.ty.shape.size a) = fun _ => 0 :=
    funext fun a => by fin_cases a <;> decide +kernel
  exact (Memref.read_access_unit_zero (Elt F) main_v2 hz' (fun a => by rw [congrFun hz' a]; simp) (result m c)).symm

/-- So the result array ends holding the final accumulator. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]; omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 128 from by decide +kernel]; omega⟩

/-- Lane `l` of the result array, as the scalar the host lines after the kernel extract. -/
def lane0 (c : Dev nD) : Buf (Elt F) ((c : Thread nD τ).loc main_v4) :=
  shapeCast S_ (extractStridedSlice S1x1 ![0, 0] (result m c) slices_S1x128_S1x1_0_0) shapeCasts_S1x1_S_

theorem tail_v4 (c : Dev nD) :
    Pipeline.afterTail₀ cfgs (dats m) 0 (V0 m) [hostOps1] c main_v4 = lane0 m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = result m c := (Pipeline.withArrays_arr spec0 launch0.win.arr_inj c _ _ 2).trans (final_o m c)
  rw [e]
  rfl

end Cert.KernelIdeal.Acc

end
-- ==== Proof.KernelRun.lean ====
/-
  The kernel's run, with its four results named.

  After the kernel the host reads lanes 0, 1, 2 of the [1,128] result array as three scalars and adds them.  So
  every weakly fair execution ends with the three scalars at the three lanes of the final accumulator and the
  fourth at their sum, the arguments unchanged.
-/
import proofs.«140411_j43190191128633_2_alg».proof.Proof.Final
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- Lanes 1 and 2 of the result array, as the host extracts them, and the total. -/
def lane1 (c : Dev nD) : Buf (Elt F) ((c : Thread nD τ).loc main_v6) :=
  shapeCast S_ (extractStridedSlice S1x1 ![0, 1] (result m c) slices_S1x128_S1x1_0_1) shapeCasts_S1x1_S_
def lane2 (c : Dev nD) : Buf (Elt F) ((c : Thread nD τ).loc main_v8) :=
  shapeCast S_ (extractStridedSlice S1x1 ![0, 2] (result m c) slices_S1x128_S1x1_0_2) shapeCasts_S1x1_S_
def total (c : Dev nD) : Buf (Elt F) ((c : Thread nD τ).loc main_v10) :=
  addf (addf (lane0 m c) (lane1 m c)) (lane2 m c)

/-- What the region leaves in the result array, as the host lines after it find it. -/
theorem after_region (c : Dev nD) :
    Pipeline.withArrays (cfgs 0).spec c (V0 m c) (fun w => (dats m 0 c).arrAt w (cfgs 0).N) (Proc.devRef .tc main_v2)
      = result m c := (Pipeline.withArrays_arr spec0 launch0.win.arr_inj c _ _ 2).trans (final_o m c)

theorem tail_v6 (c : Dev nD) :
    Pipeline.afterTail₀ cfgs (dats m) 0 (V0 m) [hostOps1] c main_v6 = lane1 m c := by
  unfold Pipeline.afterTail₀
  show StableHlo.after hostOps1 _ (Proc.devRef .tc main_v6) = _
  after_results
  rw [after_region]
  rfl

theorem tail_v8 (c : Dev nD) :
    Pipeline.afterTail₀ cfgs (dats m) 0 (V0 m) [hostOps1] c main_v8 = lane2 m c := by
  unfold Pipeline.afterTail₀
  show StableHlo.after hostOps1 _ (Proc.devRef .tc main_v8) = _
  after_results
  rw [after_region]
  rfl

theorem tail_v10 (c : Dev nD) :
    Pipeline.afterTail₀ cfgs (dats m) 0 (V0 m) [hostOps1] c main_v10 = total m c := by
  unfold Pipeline.afterTail₀
  show StableHlo.after hostOps1 _ (Proc.devRef .tc main_v10) = _
  after_results
  rw [after_region]
  rfl

/-- The run, read: the four results at the lanes and their sum, the arguments unchanged. -/
theorem run : θ_run defs (onTc (τ := τ) (main (F := F))) ⟨m, fun _ => 0, ρ⟩ fun r => ∀ c : Dev nD,
      r.2.mem ((c.tc : Thread nD τ).loc main_v10) = total m c
      ∧ r.2.mem ((c.tc : Thread nD τ).loc main_v4) = lane0 m c
      ∧ r.2.mem ((c.tc : Thread nD τ).loc main_v6) = lane1 m c
      ∧ r.2.mem ((c.tc : Thread nD τ).loc main_v8) = lane2 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_v10 m c),
     ((h c).2 main_v4 (Pipeline.mem_restRefs_of main_v4 (by decide) (by decide))).trans (tail_v4 m c),
     ((h c).2 main_v6 (Pipeline.mem_restRefs_of main_v6 (by decide) (by decide))).trans (tail_v6 m c),
     ((h c).2 main_v8 (Pipeline.mem_restRefs_of main_v8 (by decide) (by decide))).trans (tail_v8 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-! ## The scalars are the lanes -/

theorem numel_scalar : S_.numel = 1 := by decide

/-- Lane `l` extracted as a scalar is the result array's entry at that lane. -/
theorem lane0_apply (c : Dev nD) (i : S_.Idx) : lane0 m c i = result m c (ix2 (0 : Fin 1) (0 : Fin 128)) := by
  unfold lane0
  refine (shapeCast_apply _ shapeCasts_S1x1_S_ i (ix2 (0 : Fin 1) (0 : Fin 1)) (by
    have h : (S_.rowMajor i).val < 1 := lt_of_lt_of_eq (S_.rowMajor i).isLt numel_scalar
    rw [Shape.rowMajor_val_two]; show 0 * 1 + 0 = _; omega)).trans ?_
  exact extractStridedSlice_apply _ (result m c) _ (ix2 (0 : Fin 1) (0 : Fin 1)) (ix2 (0 : Fin 1) (0 : Fin 128))
    fun a => match a with | ⟨0, _⟩ => rfl | ⟨1, _⟩ => rfl

theorem lane1_apply (c : Dev nD) (i : S_.Idx) : lane1 m c i = result m c (ix2 (0 : Fin 1) (1 : Fin 128)) := by
  unfold lane1
  refine (shapeCast_apply _ shapeCasts_S1x1_S_ i (ix2 (0 : Fin 1) (0 : Fin 1)) (by
    have h : (S_.rowMajor i).val < 1 := lt_of_lt_of_eq (S_.rowMajor i).isLt numel_scalar
    rw [Shape.rowMajor_val_two]; show 0 * 1 + 0 = _; omega)).trans ?_
  exact extractStridedSlice_apply _ (result m c) _ (ix2 (0 : Fin 1) (0 : Fin 1)) (ix2 (0 : Fin 1) (1 : Fin 128))
    fun a => match a with | ⟨0, _⟩ => rfl | ⟨1, _⟩ => rfl

theorem lane2_apply (c : Dev nD) (i : S_.Idx) : lane2 m c i = result m c (ix2 (0 : Fin 1) (2 : Fin 128)) := by
  unfold lane2
  refine (shapeCast_apply _ shapeCasts_S1x1_S_ i (ix2 (0 : Fin 1) (0 : Fin 1)) (by
    have h : (S_.rowMajor i).val < 1 := lt_of_lt_of_eq (S_.rowMajor i).isLt numel_scalar
    rw [Shape.rowMajor_val_two]; show 0 * 1 + 0 = _; omega)).trans ?_
  exact extractStridedSlice_apply _ (result m c) _ (ix2 (0 : Fin 1) (0 : Fin 1)) (ix2 (0 : Fin 1) (2 : Fin 128))
    fun a => match a with | ⟨0, _⟩ => rfl | ⟨1, _⟩ => rfl

end Cert.KernelIdeal.Acc

end
-- ==== Proof.StepValue.lean ====
/-
  One grid point's contribution, read lane by lane on the extended reals.

  For a [4096,5] block of predictions `x0` and of targets `x1`, row `y` has the object mask "target confidence
  equals 1", the squared confidence error (x1[y,0] − x0[y,0])², and the box term Σₖ (x1[y,1+k] − x0[y,1+k])² over
  the four coordinates.  The block's three partial sums add, over its 4096 rows, the box term where the mask
  holds, the confidence term where it holds, and the confidence term where it does not.  One step of the
  accumulator adds 5 × the first to lane 0, the second to lane 1, and ½ × the third to lane 2.
-/
import proofs.«140411_j43190191128633_2_alg».proof.Proof.Pieces
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen

/-! ## The block's three partial sums -/

section Rows
variable (x0 x1 : FVec Ideal S4096x5 .f32)

/-- Row `y`'s object mask: the target's confidence is exactly 1. -/
def rowMask (y : Fin 4096) : BitVec 1 := FloatOps.cmpf .oeq (x1 (ix2 y (0 : Fin 5))) (Ideal.ofBits .f32 0x3F800000#32)
/-- Row `y`'s squared confidence error. -/
def rowConf (y : Fin 4096) : EReal :=
  (x1 (ix2 y (0 : Fin 5)) - x0 (ix2 y (0 : Fin 5))) * (x1 (ix2 y (0 : Fin 5)) - x0 (ix2 y (0 : Fin 5)))
/-- Row `y`'s box term: the squared errors of its four coordinates, summed. -/
def rowBox (y : Fin 4096) : EReal :=
  ∑ k : Fin 4, (x1 (ix2 y k.succ) - x0 (ix2 y k.succ)) * (x1 (ix2 y k.succ) - x0 (ix2 y k.succ))
/-- The block's masked box sum. -/
def blkBox : EReal := ∑ y : Fin 4096, Scalar.select (rowMask x1 y) (rowBox x0 x1 y) 0
/-- The block's masked confidence sum. -/
def blkObj : EReal := ∑ y : Fin 4096, Scalar.select (rowMask x1 y) (rowConf x0 x1 y) 0
/-- The block's unmasked confidence sum. -/
def blkNoobj : EReal := ∑ y : Fin 4096, Scalar.select (rowMask x1 y) 0 (rowConf x0 x1 y)

end Rows

/-! ## The body's layout operations at an index -/

section Layout
variable {α : Type}

/-- Column 0 of a block, as a [4096,1] column. -/
theorem slice_col0 (x : S4096x5.Idx → α) (y : Fin 4096) :
    extractStridedSlice S4096x1 ![0, 0] x slices_S4096x5_o0_0_S4096x1 (ix2 y (0 : Fin 1)) = x (ix2 y (0 : Fin 5)) :=
  extractStridedSlice_apply _ x _ (ix2 y (0 : Fin 1)) (ix2 y (0 : Fin 5)) fun a => match a with
    | ⟨0, _⟩ => by show y.val = 0 + y.val; omega
    | ⟨1, _⟩ => rfl

/-- Columns 1–4 of a block, as a [4096,4] block. -/
theorem slice_cols (x : S4096x5.Idx → α) (y : Fin 4096) (k : Fin 4) :
    extractStridedSlice S4096x4 ![0, 1] x slices_S4096x5_o0_1_S4096x4 (ix2 y k) = x (ix2 y k.succ) :=
  extractStridedSlice_apply _ x _ (ix2 y k) (ix2 y k.succ) fun a => match a with
    | ⟨0, _⟩ => by show y.val = 0 + y.val; omega
    | ⟨1, _⟩ => by show (k.succ).val = 1 + k.val; rw [Fin.val_succ]; omega

end Layout

/-! ## The pointwise payloads at a row -/

section Payloads
variable (x0 x1 : FVec Ideal S4096x5 .f32)

theorem pay5_apply (y : Fin 4096) : k0_pay5 (F := Ideal) x1 (ix2 y (0 : Fin 1)) = x1 (ix2 y (0 : Fin 5)) := by
  unfold k0_pay5 k0_pay4
  rw [shapeCast_self]
  exact slice_col0 x1 y

theorem pay7_apply (y : Fin 4096) : k0_pay7 (F := Ideal) x1 (ix2 y (0 : Fin 1)) = rowMask x1 y := by
  unfold k0_pay7 rowMask
  show FloatOps.cmpf .oeq (k0_pay5 (F := Ideal) x1 (ix2 y (0 : Fin 1))) _ = _
  rw [pay5_apply]
  rfl

theorem pay6_apply (y : Fin 4096) : k0_pay6 (F := Ideal) x0 x1 (ix2 y (0 : Fin 1)) = rowConf x0 x1 y := by
  unfold k0_pay6 k0_pay3 rowConf
  show (k0_pay5 (F := Ideal) x1 (ix2 y (0 : Fin 1))
      - extractStridedSlice S4096x1 ![0, 0] (shapeCast S4096x5 x0 shapeCasts_S4096x5_S4096x5) slices_S4096x5_o0_0_S4096x1 (ix2 y (0 : Fin 1)))
    * (k0_pay5 (F := Ideal) x1 (ix2 y (0 : Fin 1))
      - extractStridedSlice S4096x1 ![0, 0] (shapeCast S4096x5 x0 shapeCasts_S4096x5_S4096x5) slices_S4096x5_o0_0_S4096x1 (ix2 y (0 : Fin 1))) = _
  rw [pay5_apply, shapeCast_self, slice_col0]

end Payloads

/-! ## The body's reductions at an index -/

section Reductions

/-- A [4096,1] column summed over its rows and kept as a [1,1] block is the sum of the column. -/
theorem colsum_apply (v : FVec Ideal S4096x1 .f32) (hφ : FKind.Formats .f32)
    (hacc : (0x00000000#32 : BitVec 32) = FKind.add.neutral .f32 hφ) :
    shapeCast S1x1 (multiReduction .add [0] S1 v 0x00000000#32 reduces_S4096x1_S1 hφ hacc) shapeCasts_S1_S1x1
        (ix2 (0 : Fin 1) (0 : Fin 1))
      = ∑ y : Fin 4096, v (ix2 y (0 : Fin 1)) := by
  refine (shapeCast_apply _ shapeCasts_S1_S1x1 (ix2 (0 : Fin 1) (0 : Fin 1)) (ix1 (0 : Fin 1))
    (by rw [Shape.rowMajor_val_one, Shape.rowMajor_val_two]; rfl)).trans ?_
  refine (Ideal.multiReduction_add_single v 0x00000000#32 reduces_S4096x1_S1 hφ hacc (ix1 (0 : Fin 1))).trans ?_
  show ∑ y : Fin 4096, v (reduces_S4096x1_S1.lift (ix1 (0 : Fin 1)) y) = _
  refine Finset.sum_congr rfl fun y _ => congrArg v (funext fun a => ?_)
  match a with
  | ⟨0, _⟩ => rfl
  | ⟨1, _⟩ => rfl

/-- A [4096,4] block summed along its rows and kept as a [4096,1] column is, at row `y`, the row's sum. -/
theorem rowsum_apply (v : FVec Ideal S4096x4 .f32) (hφ : FKind.Formats .f32)
    (hacc : (0x00000000#32 : BitVec 32) = FKind.add.neutral .f32 hφ) (y : Fin 4096) :
    shapeCast S4096x1 (multiReduction .add [1] S4096 v 0x00000000#32 reduces_S4096x4_S4096 hφ hacc) shapeCasts_S4096_S4096x1
        (ix2 y (0 : Fin 1))
      = ∑ k : Fin 4, v (ix2 y k) := by
  refine (shapeCast_apply _ shapeCasts_S4096_S4096x1 (ix2 y (0 : Fin 1)) (ix1 y)
    (by rw [Shape.rowMajor_val_one, Shape.rowMajor_val_two]; show y.val = y.val * 1 + 0; omega)).trans ?_
  refine (Ideal.multiReduction_add_single v 0x00000000#32 reduces_S4096x4_S4096 hφ hacc (ix1 y)).trans ?_
  show ∑ k : Fin 4, v (reduces_S4096x4_S4096.lift (ix1 y) k) = _
  refine Finset.sum_congr rfl fun k _ => congrArg v (funext fun a => ?_)
  match a with
  | ⟨0, _⟩ => rfl
  | ⟨1, _⟩ => rfl

/-- A [1,1] block broadcast along the lanes reads its one entry at every lane. -/
theorem lanes_apply {α : Type} (v : S1x1.Idx → α) (l : Fin 128) :
    broadcastTo S1x128 v broadcasts_S1x1_S1x128 (ix2 (0 : Fin 1) l) = v (ix2 (0 : Fin 1) (0 : Fin 1)) :=
  broadcastTo_apply v broadcasts_S1x1_S1x128 (ix2 (0 : Fin 1) l) (ix2 (0 : Fin 1) (0 : Fin 1)) fun a => match a with
    | ⟨0, _⟩ => rfl
    | ⟨1, _⟩ => rfl

variable (x0 x1 : FVec Ideal S4096x5 .f32)

/-- The masked confidence sum of the block (the body's [1,1] value for lane 1). -/
theorem pay8_apply : k0_pay8 (F := Ideal) x0 x1 (ix2 (0 : Fin 1) (0 : Fin 1)) = blkObj x0 x1 := by
  unfold k0_pay8 blkObj
  refine (colsum_apply _ _ _).trans ?_
  refine Finset.sum_congr rfl fun y _ => ?_
  show Scalar.select (k0_pay7 (F := Ideal) x1 (ix2 y (0 : Fin 1))) (k0_pay6 (F := Ideal) x0 x1 (ix2 y (0 : Fin 1)))
    (Scalar.ofBits (F := Ideal) .f32 0x00000000#32) = _
  rw [pay7_apply, pay6_apply]
  exact congrArg _ Ideal.ofBits_zero_f32

/-- Half the unmasked confidence sum of the block (the body's [1,1] value for lane 2). -/
theorem pay9_apply : k0_pay9 (F := Ideal) x0 x1 (ix2 (0 : Fin 1) (0 : Fin 1))
    = Ideal.ofBits .f32 0x3F000000#32 * blkNoobj x0 x1 := by
  unfold k0_pay9 blkNoobj
  refine congrArg (Ideal.ofBits .f32 0x3F000000#32 * ·) ?_
  refine (colsum_apply _ _ _).trans ?_
  refine Finset.sum_congr rfl fun y _ => ?_
  show Scalar.select (k0_pay7 (F := Ideal) x1 (ix2 y (0 : Fin 1))) (Scalar.ofBits (F := Ideal) .f32 0x00000000#32)
    (k0_pay6 (F := Ideal) x0 x1 (ix2 y (0 : Fin 1))) = _
  rw [pay7_apply, pay6_apply]
  exact congrArg (fun z => Scalar.select _ z _) Ideal.ofBits_zero_f32

/-- Five times the masked box sum of the block, at every lane (the body's [1,128] value for lane 0). -/
theorem pay11_apply (l : Fin 128) : k0_pay11 (F := Ideal) x0 x1 (ix2 (0 : Fin 1) l)
    = Ideal.ofBits .f32 0x40A00000#32 * blkBox x0 x1 := by
  unfold k0_pay11 blkBox
  refine (lanes_apply _ l).trans ?_
  dsimp only
  rw [shapeCast_self]
  refine congrArg (Ideal.ofBits .f32 0x40A00000#32 * ·) ?_
  refine (colsum_apply _ _ _).trans ?_
  refine Finset.sum_congr rfl fun y _ => ?_
  show Scalar.select (k0_pay7 (F := Ideal) x1 (ix2 y (0 : Fin 1))) _ (Scalar.ofBits (F := Ideal) .f32 0x00000000#32)
    = Scalar.select (rowMask x1 y) (rowBox x0 x1 y) 0
  rw [pay7_apply]
  refine congrArg₂ (Scalar.select (rowMask x1 y)) ?_ Ideal.ofBits_zero_f32
  refine (rowsum_apply _ _ _ y).trans ?_
  unfold rowBox
  refine Finset.sum_congr rfl fun k _ => ?_
  show (extractStridedSlice S4096x4 ![0, 1] (k0_pay4 (F := Ideal) x1) slices_S4096x5_o0_1_S4096x4 (ix2 y k)
      - extractStridedSlice S4096x4 ![0, 1] (k0_pay3 (F := Ideal) x0) slices_S4096x5_o0_1_S4096x4 (ix2 y k))
    * (extractStridedSlice S4096x4 ![0, 1] (k0_pay4 (F := Ideal) x1) slices_S4096x5_o0_1_S4096x4 (ix2 y k)
      - extractStridedSlice S4096x4 ![0, 1] (k0_pay3 (F := Ideal) x0) slices_S4096x5_o0_1_S4096x4 (ix2 y k)) = _
  unfold k0_pay4 k0_pay3
  rw [shapeCast_self, shapeCast_self, slice_cols, slice_cols]

end Reductions

/-! ## One step of the accumulator, lane by lane -/

section Step
variable (x0 x1 : FVec Ideal S4096x5 .f32) (a : FVec Ideal S1x128 .f32)

/-- The lane number as the body computes it. -/
theorem lane_iota (l : Fin 128) :
    iota .tc S1x128 32 [1] iota_S1x128_d1_w32 (ix2 (0 : Fin 1) l) = BitVec.ofNat 32 l.val :=
  iota_single_apply .tc S1x128 32 1 iota_S1x128_d1_w32 (ix2 (0 : Fin 1) l)

/-- The step at lane `l`: the accumulator's entry plus the three lane-selected terms. -/
theorem step_apply (l : Fin 128) :
    step (F := Ideal) x0 x1 a (ix2 (0 : Fin 1) l)
      = a (ix2 (0 : Fin 1) l)
        + ((Scalar.select (IntOp.cmpi .eq (BitVec.ofNat 32 l.val) 0#32) (k0_pay11 (F := Ideal) x0 x1 (ix2 (0 : Fin 1) l)) 0
            + Scalar.select (IntOp.cmpi .eq (BitVec.ofNat 32 l.val) 1#32)
                (k0_pay8 (F := Ideal) x0 x1 (ix2 (0 : Fin 1) (0 : Fin 1))) 0)
          + Scalar.select (IntOp.cmpi .eq (BitVec.ofNat 32 l.val) 2#32)
              (k0_pay9 (F := Ideal) x0 x1 (ix2 (0 : Fin 1) (0 : Fin 1))) 0) := by
  unfold step k0_pay1 k0_pay10
  dsimp only
  simp only [shapeCast_self]
  show a (ix2 (0 : Fin 1) l)
    + ((Scalar.select (IntOp.cmpi .eq (iota .tc S1x128 32 [1] iota_S1x128_d1_w32 (ix2 (0 : Fin 1) l)) 0#32)
          (k0_pay11 (F := Ideal) x0 x1 (ix2 (0 : Fin 1) l)) (Scalar.ofBits (F := Ideal) .f32 0x00000000#32)
        + Scalar.select (IntOp.cmpi .eq (iota .tc S1x128 32 [1] iota_S1x128_d1_w32 (ix2 (0 : Fin 1) l)) 1#32)
          (broadcastTo S1x128 (k0_pay8 (F := Ideal) x0 x1) broadcasts_S1x1_S1x128 (ix2 (0 : Fin 1) l))
          (Scalar.ofBits (F := Ideal) .f32 0x00000000#32))
      + Scalar.select (IntOp.cmpi .eq (iota .tc S1x128 32 [1] iota_S1x128_d1_w32 (ix2 (0 : Fin 1) l)) 2#32)
          (broadcastTo S1x128 (k0_pay9 (F := Ideal) x0 x1) broadcasts_S1x1_S1x128 (ix2 (0 : Fin 1) l))
          (Scalar.ofBits (F := Ideal) .f32 0x00000000#32)) = _
  rw [lane_iota, lanes_apply, lanes_apply]
  rw [show Scalar.ofBits (F := Ideal) .f32 0x00000000#32 = (0 : EReal) from Ideal.ofBits_zero_f32]

/-- Lane 0 gains five times the block's masked box sum. -/
theorem step_lane0 : step (F := Ideal) x0 x1 a (ix2 (0 : Fin 1) (0 : Fin 128))
    = a (ix2 (0 : Fin 1) (0 : Fin 128)) + Ideal.ofBits .f32 0x40A00000#32 * blkBox x0 x1 := by
  rw [step_apply, pay11_apply]
  have e0 : IntOp.cmpi .eq (BitVec.ofNat 32 (0 : Fin 128).val) 0#32 = 1#1 := by decide
  have e1 : IntOp.cmpi .eq (BitVec.ofNat 32 (0 : Fin 128).val) 1#32 = 0#1 := by decide
  have e2 : IntOp.cmpi .eq (BitVec.ofNat 32 (0 : Fin 128).val) 2#32 = 0#1 := by decide
  rw [e0, e1, e2]
  simp [Scalar.select]

/-- Lane 1 gains the block's masked confidence sum. -/
theorem step_lane1 : step (F := Ideal) x0 x1 a (ix2 (0 : Fin 1) (1 : Fin 128))
    = a (ix2 (0 : Fin 1) (1 : Fin 128)) + blkObj x0 x1 := by
  rw [step_apply, pay8_apply]
  have e0 : IntOp.cmpi .eq (BitVec.ofNat 32 (1 : Fin 128).val) 0#32 = 0#1 := by decide
  have e1 : IntOp.cmpi .eq (BitVec.ofNat 32 (1 : Fin 128).val) 1#32 = 1#1 := by decide
  have e2 : IntOp.cmpi .eq (BitVec.ofNat 32 (1 : Fin 128).val) 2#32 = 0#1 := by decide
  rw [e0, e1, e2]
  simp [Scalar.select]

/-- Lane 2 gains half the block's unmasked confidence sum. -/
theorem step_lane2 : step (F := Ideal) x0 x1 a (ix2 (0 : Fin 1) (2 : Fin 128))
    = a (ix2 (0 : Fin 1) (2 : Fin 128)) + Ideal.ofBits .f32 0x3F000000#32 * blkNoobj x0 x1 := by
  rw [step_apply, pay9_apply]
  have e0 : IntOp.cmpi .eq (BitVec.ofNat 32 (2 : Fin 128).val) 0#32 = 0#1 := by decide
  have e1 : IntOp.cmpi .eq (BitVec.ofNat 32 (2 : Fin 128).val) 1#32 = 0#1 := by decide
  have e2 : IntOp.cmpi .eq (BitVec.ofNat 32 (2 : Fin 128).val) 2#32 = 1#1 := by decide
  rw [e0, e1, e2]
  simp [Scalar.select]

/-- The zero block is zero at every lane. -/
theorem zero_apply (l : Fin 128) : (zero (F := Ideal)) (ix2 (0 : Fin 1) l) = (0 : EReal) := by
  unfold zero k0_pay2
  rw [shapeCast_self]
  exact Ideal.ofBits_zero_f32

end Step

end Cert.KernelIdeal.Acc

end
-- ==== Proof.Blocks.lean ====
/-
  The input blocks, read off the arrays.

  Before the kernel the host reshapes each [65536,10,10,5] argument to a [6553600,5] array, one row per grid cell.
  Grid point `t` stages rows 4096·t … 4096·t + 4095 of each: entry (y, k) of a point's block is entry
  (4096·t + y, k) of the reshaped array.
-/
import proofs.«140411_j43190191128633_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- Row `y` of grid point `t`'s block, as a row of the reshaped array. -/
def rowOf (t : Fin cfg0.N) (y : Fin 4096) : Fin 6553600 :=
  ⟨t.val * 4096 + y.val, by
    have ht : t.val < 1600 := lt_of_lt_of_eq t.isLt (show cfg0.N = 1600 from N_0)
    have hy := y.isLt
    omega⟩

/-- Both input windows take block `t` along the rows and the whole row across. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- The predictions' block at point `t`, entry by entry. -/
theorem iblk0_apply (c : Dev nD) (t : Fin cfg0.N) (y : Fin 4096) (k : Fin 5) :
    (iblk m c 0 t : Vec F S4096x5 .f32) (ix2 y k) = (V m c main_v0 : S6553600x5.Idx → Elt F .f32) (ix2 (rowOf t y) k) := by
  unfold iblk
  rw [View.read_apply]
  show V m c main_v0 _ = V m c main_v0 _
  refine congrArg (V m c main_v0) (funext fun a => Fin.ext ?_)
  match a with
  | ⟨0, _⟩ => show win0_0.index t 0 * 4096 + 1 * y.val = t.val * 4096 + y.val; rw [(index0 t).1]; omega
  | ⟨1, _⟩ => show win0_0.index t 1 * 5 + 1 * k.val = k.val; rw [(index0 t).2]; omega

/-- The targets' block at point `t`, entry by entry. -/
theorem iblk1_apply (c : Dev nD) (t : Fin cfg0.N) (y : Fin 4096) (k : Fin 5) :
    (iblk m c 1 t : Vec F S4096x5 .f32) (ix2 y k) = (V m c main_v1 : S6553600x5.Idx → Elt F .f32) (ix2 (rowOf t y) k) := by
  unfold iblk
  rw [View.read_apply]
  show V m c main_v1 _ = V m c main_v1 _
  refine congrArg (V m c main_v1) (funext fun a => Fin.ext ?_)
  match a with
  | ⟨0, _⟩ => show win0_1.index t 0 * 4096 + 1 * y.val = t.val * 4096 + y.val; rw [(index1 t).1]; omega
  | ⟨1, _⟩ => show win0_1.index t 1 * 5 + 1 * k.val = k.val; rw [(index1 t).2]; omega

/-- The region finds the first array at the host's reshape of the predictions … -/
theorem V_v0 (c : Dev nD) : (V m c main_v0 : S6553600x5.Idx → Elt F .f32)
    = shapeCast S6553600x5 (m ((c : Thread nD τ).loc main_arg0)) shapeCasts_S65536x10x10x5_S6553600x5 := by
  show StableHlo.after hostOps0 (fun b => m (c, b)) (Proc.devRef .tc main_v0) = _
  after_results
  rfl

/-- … and the second at the reshape of the targets. -/
theorem V_v1 (c : Dev nD) : (V m c main_v1 : S6553600x5.Idx → Elt F .f32)
    = shapeCast S6553600x5 (m ((c : Thread nD τ).loc main_arg1)) shapeCasts_S65536x10x10x5_S6553600x5 := by
  show StableHlo.after hostOps0 (fun b => m (c, b)) (Proc.devRef .tc main_v1) = _
  after_results
  rfl

end Cert.KernelIdeal.Acc

end
-- ==== Proof.ScaleSum.lean ====
/-
  Scaling a finite sum of extended reals by a non-negative finite factor.

  On the extended reals multiplication does not distribute over addition in general (⊤ + ⊥ = ⊥ spoils it
  for negative factors), but a factor that is non-negative and not ⊤ does distribute, term by term, over any
  finite sum, whatever the terms are: no finiteness of the terms is needed.  This is the law that moves the loss
  weights 5 and 1/2 from each block's partial sum to the whole sum.
-/
import Mathlib.Data.EReal.Operations
import Mathlib.Algebra.BigOperators.Group.Finset.Basic

namespace YoloSum

open scoped BigOperators

/-- A non-negative factor other than ⊤ distributes over a finite sum of extended reals. -/
theorem mul_sum_of_nonneg_ne_top {ι : Type*} (s : Finset ι) (a : EReal) (ha : 0 ≤ a) (ha' : a ≠ ⊤)
    (f : ι → EReal) : a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top ha ha', ih]

end YoloSum
-- ==== Proof.BlockSum.lean ====
/-
  Regrouping a sum over rows by blocks of rows.

  A sum over the `N * B` rows of an array, taken in any enumeration `e` of the rows by `Fin (N * B)`, is the sum
  over the `N` blocks of the sum over the `B` rows of each block: row `t * B + y` is row `y` of block `t`.
  Only commutativity and associativity of the addition are used, so it holds in any commutative monoid — in
  particular on the extended reals, whatever the terms are.
-/
import Mathlib.Algebra.BigOperators.Fin
import Mathlib.Logic.Equiv.Fin.Basic

namespace YoloSum

open scoped BigOperators

/-- Row `y` of block `t`, as a row of the whole array. -/
def blockRow {N B : ℕ} (t : Fin N) (y : Fin B) : Fin (N * B) :=
  ⟨t.val * B + y.val, by
    have ht := t.isLt; have hy := y.isLt
    calc t.val * B + y.val < t.val * B + B := by omega
      _ = (t.val + 1) * B := (Nat.succ_mul _ _).symm
      _ ≤ N * B := Nat.mul_le_mul_right B ht⟩

@[simp] theorem blockRow_val {N B : ℕ} (t : Fin N) (y : Fin B) : (blockRow t y).val = t.val * B + y.val := rfl

/-- A sum over all rows is the sum over blocks of the sums over each block's rows. -/
theorem sum_rows_eq_sum_blocks {M : Type*} [AddCommMonoid M] {N B : ℕ} (g : Fin (N * B) → M) :
    ∑ r : Fin (N * B), g r = ∑ t : Fin N, ∑ y : Fin B, g (blockRow t y) := by
  rw [← (Equiv.sum_comp finProdFinEquiv g), Fintype.sum_prod_type]
  refine Finset.sum_congr rfl fun t _ => Finset.sum_congr rfl fun y _ => congrArg g (Fin.ext ?_)
  simp [finProdFinEquiv, blockRow, Nat.mul_comm, Nat.add_comm]

/-- The same through any enumeration of an index type by the rows. -/
theorem sum_eq_sum_blocks {M : Type*} [AddCommMonoid M] {ι : Type*} [Fintype ι] {N B : ℕ} (e : ι ≃ Fin (N * B))
    (g : Fin (N * B) → M) : ∑ j : ι, g (e j) = ∑ t : Fin N, ∑ y : Fin B, g (blockRow t y) := by
  rw [Equiv.sum_comp e g, sum_rows_eq_sum_blocks]

end YoloSum
-- ==== Proof.Consts.lean ====
/-
  The two loss weights as extended reals.

  The box weight's bit pattern denotes the real 5 and the no-object weight's the real 1/2: both are non-negative
  and finite, which is all that scaling a sum term by term needs.
-/
import Idealize.ShloMosaic.PureOps.Ideal

noncomputable section

namespace YoloSum

open Idealize.ShloMosaic

/-- The box weight is the real 5. -/
theorem ofBits_five : Ideal.ofBits .f32 0x40A00000#32 = ((5 : ℝ) : EReal) := by
  simp [Ideal.ofBits, Ideal.ieee, -EReal.coe_mul]; norm_num

/-- The no-object weight is the real 1/2. -/
theorem ofBits_half : Ideal.ofBits .f32 0x3F000000#32 = ((1 / 2 : ℝ) : EReal) := by
  simp [Ideal.ofBits, Ideal.ieee, -EReal.coe_mul]; norm_num

theorem five_nonneg : (0 : EReal) ≤ Ideal.ofBits .f32 0x40A00000#32 := by
  rw [ofBits_five]; exact EReal.coe_nonneg.mpr (by norm_num)
theorem five_ne_top : Ideal.ofBits .f32 0x40A00000#32 ≠ (⊤ : EReal) := by
  rw [ofBits_five]; exact EReal.coe_ne_top _
theorem half_nonneg : (0 : EReal) ≤ Ideal.ofBits .f32 0x3F000000#32 := by
  rw [ofBits_half]; exact EReal.coe_nonneg.mpr (by norm_num)
theorem half_ne_top : Ideal.ofBits .f32 0x3F000000#32 ≠ (⊤ : EReal) := by
  rw [ofBits_half]; exact EReal.coe_ne_top _

end YoloSum

end
-- ==== Proof.Spec.lean ====
/-
  The three losses as functions of the reshaped arrays.

  Over the [6553600,5] arrays `X0` (predictions) and `X1` (targets), one row per grid cell: cell `r` has the
  object mask "X1[r,0] = 1", the squared confidence error (X1[r,0] − X0[r,0])² and the box term
  Σₖ (X1[r,1+k] − X0[r,1+k])² over the four box coordinates.  The box loss is 5 times the sum over all cells of the
  box term where the mask holds; the object loss the sum of the confidence term where it holds; the no-object loss
  one half of the sum of the confidence term where it does not.
-/
import proofs.«140411_j43190191128633_2_alg».proof.KernelIdeal
import Idealize.ShloMosaic.Lib.ValueIdx
import Idealize.ShloMosaic.PureOps.Ideal

noncomputable section

open Idealize.ShloMosaic Idealize.ShloMosaic.ValueIdx
open scoped BigOperators

namespace Cert.KernelIdeal.Acc

open Cert.KernelIdeal

/-! ## The three terms of a grid cell -/

section Cells
variable (X0 X1 : FVec Ideal S6553600x5 .f32)

/-- Cell `r`'s object mask: the target's confidence is exactly 1. -/
def cellMask (r : Fin 6553600) : BitVec 1 := FloatOps.cmpf .oeq (X1 (ix2 r (0 : Fin 5))) (Ideal.ofBits .f32 0x3F800000#32)
/-- Cell `r`'s squared confidence error. -/
def cellConf (r : Fin 6553600) : EReal :=
  (X1 (ix2 r (0 : Fin 5)) - X0 (ix2 r (0 : Fin 5))) * (X1 (ix2 r (0 : Fin 5)) - X0 (ix2 r (0 : Fin 5)))
/-- Cell `r`'s box term. -/
def cellBox (r : Fin 6553600) : EReal :=
  ∑ k : Fin 4, (X1 (ix2 r k.succ) - X0 (ix2 r k.succ)) * (X1 (ix2 r k.succ) - X0 (ix2 r k.succ))
/-- The masked box term, the masked confidence term, the unmasked confidence term. -/
def boxTerm (r : Fin 6553600) : EReal := Scalar.select (cellMask X1 r) (cellBox X0 X1 r) 0
def objTerm (r : Fin 6553600) : EReal := Scalar.select (cellMask X1 r) (cellConf X0 X1 r) 0
def noobjTerm (r : Fin 6553600) : EReal := Scalar.select (cellMask X1 r) 0 (cellConf X0 X1 r)

/-- The three losses over all cells. -/
def boxLoss : EReal := Ideal.ofBits .f32 0x40A00000#32 * ∑ r : Fin 6553600, boxTerm X0 X1 r
def objLoss : EReal := ∑ r : Fin 6553600, objTerm X0 X1 r
def noobjLoss : EReal := Ideal.ofBits .f32 0x3F000000#32 * ∑ r : Fin 6553600, noobjTerm X0 X1 r

end Cells

end Cert.KernelIdeal.Acc

end
-- ==== Proof.Totals.lean ====
/-
  The final accumulator's three lanes as sums over all grid cells.

  Over the reshaped [6553600,5] arrays `X0` (predictions) and `X1` (targets), cell `r` has the object mask
  "X1[r,0] = 1", the squared confidence error (X1[r,0] − X0[r,0])² and the box term Σₖ (X1[r,1+k] − X0[r,1+k])².
  Lane 0 of the final accumulator is 5 times the sum over ALL cells of the masked box term, lane 1 the sum of the
  masked confidence term, lane 2 one half of the sum of the unmasked confidence term.  The kernel adds 5 × (resp.
  ½ ×) each block's partial sum point by point; a non-negative finite factor distributes over a sum of extended
  reals, and the sum over the 1600 blocks of the sums over each block's 4096 rows is the sum over all rows.
-/
import proofs.«140411_j43190191128633_2_alg».proof.Proof.Running
import proofs.«140411_j43190191128633_2_alg».proof.Proof.StepValue
import proofs.«140411_j43190191128633_2_alg».proof.Proof.Blocks
import proofs.«140411_j43190191128633_2_alg».proof.Proof.ScaleSum
import proofs.«140411_j43190191128633_2_alg».proof.Proof.BlockSum
import proofs.«140411_j43190191128633_2_alg».proof.Proof.Consts
import proofs.«140411_j43190191128633_2_alg».proof.Proof.Spec

set_option maxRecDepth 16384

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen

/-! ## A sum over all rows, block by block -/

/-- All rows, grouped by grid point. -/
theorem sum_rows {M : Type*} [AddCommMonoid M] (g : Fin 6553600 → M) :
    ∑ r : Fin 6553600, g r = ∑ t : Fin cfg0.N, ∑ y : Fin 4096, g (rowOf t y) :=
  YoloSum.sum_rows_eq_sum_blocks (N := 1600) (B := 4096) g

/-! ## The lanes of the running accumulator -/

section Lanes
variable (m : (ℓ : Loc nD τ sig) → Buf (Elt Ideal) ℓ)

/-- What point number `t` contributes to a lane (nothing past the grid). -/
def contribAt (c : Dev nD) (f : FVec Ideal S4096x5 .f32 → FVec Ideal S4096x5 .f32 → EReal) (t : ℕ) : EReal :=
  if ht : t < cfg0.N then f (iblk m c 0 ⟨t, ht⟩) (iblk m c 1 ⟨t, ht⟩) else 0

/-- A lane that each step raises by `f` of the point's blocks holds, after point `n`, the sum of `f` over
    points 0 … n. -/
theorem acc_lane (c : Dev nD) (l : Fin 128) (f : FVec Ideal S4096x5 .f32 → FVec Ideal S4096x5 .f32 → EReal)
    (hstep : ∀ (x0 x1 : FVec Ideal S4096x5 .f32) (a : FVec Ideal S1x128 .f32),
      step (F := Ideal) x0 x1 a (ix2 (0 : Fin 1) l) = a (ix2 (0 : Fin 1) l) + f x0 x1) :
    ∀ (n : ℕ) (h : n < cfg0.N), acc m c n h (ix2 (0 : Fin 1) l) = ∑ t ∈ Finset.range (n + 1), contribAt m c f t
  | 0, h => by
    rw [acc_zero, hstep, zero_apply, zero_add, Finset.sum_range_one]
    unfold contribAt; rw [dif_pos h]
  | n + 1, h => by
    rw [acc_succ, hstep, acc_lane c l f hstep n (Nat.lt_of_succ_lt h), Finset.sum_range_succ (contribAt m c f) (n + 1)]
    refine congrArg (_ + ·) ?_
    unfold contribAt; rw [dif_pos h]

/-- After the last point: the sum over every grid point. -/
theorem acc_last (c : Dev nD) (l : Fin 128) (f : FVec Ideal S4096x5 .f32 → FVec Ideal S4096x5 .f32 → EReal)
    (hstep : ∀ (x0 x1 : FVec Ideal S4096x5 .f32) (a : FVec Ideal S1x128 .f32),
      step (F := Ideal) x0 x1 a (ix2 (0 : Fin 1) l) = a (ix2 (0 : Fin 1) l) + f x0 x1) :
    acc m c 1599 last_lt (ix2 (0 : Fin 1) l) = ∑ t : Fin cfg0.N, f (iblk m c 0 t) (iblk m c 1 t) := by
  rw [acc_lane m c l f hstep 1599 last_lt]
  show ∑ t ∈ Finset.range 1600, contribAt m c f t = ∑ t : Fin 1600, f (iblk m c 0 t) (iblk m c 1 t)
  rw [← Fin.sum_univ_eq_sum_range (contribAt m c f) 1600]
  refine Finset.sum_congr rfl fun t _ => ?_
  unfold contribAt
  rw [dif_pos (lt_of_lt_of_eq t.isLt (show 1600 = cfg0.N from N_0.symm))]
  rfl

end Lanes

/-! ## From a point's blocks to the arrays -/

section ToArrays
variable (m : (ℓ : Loc nD τ sig) → Buf (Elt Ideal) ℓ) (c : Dev nD) (t : Fin cfg0.N)

theorem rowMask_iblk (y : Fin 4096) : rowMask (iblk m c 1 t) y = cellMask (V m c main_v1) (rowOf t y) := by
  unfold rowMask cellMask; rw [iblk1_apply]

theorem rowConf_iblk (y : Fin 4096) :
    rowConf (iblk m c 0 t) (iblk m c 1 t) y = cellConf (V m c main_v0) (V m c main_v1) (rowOf t y) := by
  unfold rowConf cellConf; rw [iblk0_apply, iblk1_apply]

theorem rowBox_iblk (y : Fin 4096) :
    rowBox (iblk m c 0 t) (iblk m c 1 t) y = cellBox (V m c main_v0) (V m c main_v1) (rowOf t y) := by
  unfold rowBox cellBox
  refine Finset.sum_congr rfl fun k _ => ?_
  rw [iblk0_apply, iblk1_apply]

theorem blkBox_iblk : blkBox (iblk m c 0 t) (iblk m c 1 t)
    = ∑ y : Fin 4096, boxTerm (V m c main_v0) (V m c main_v1) (rowOf t y) := by
  unfold blkBox boxTerm
  refine Finset.sum_congr rfl fun y _ => ?_
  rw [rowMask_iblk, rowBox_iblk]

theorem blkObj_iblk : blkObj (iblk m c 0 t) (iblk m c 1 t)
    = ∑ y : Fin 4096, objTerm (V m c main_v0) (V m c main_v1) (rowOf t y) := by
  unfold blkObj objTerm
  refine Finset.sum_congr rfl fun y _ => ?_
  rw [rowMask_iblk, rowConf_iblk]

theorem blkNoobj_iblk : blkNoobj (iblk m c 0 t) (iblk m c 1 t)
    = ∑ y : Fin 4096, noobjTerm (V m c main_v0) (V m c main_v1) (rowOf t y) := by
  unfold blkNoobj noobjTerm
  refine Finset.sum_congr rfl fun y _ => ?_
  rw [rowMask_iblk, rowConf_iblk]

end ToArrays

/-! ## The three lanes of the final accumulator -/

section Losses
variable (m : (ℓ : Loc nD τ sig) → Buf (Elt Ideal) ℓ) (c : Dev nD)

/-- Lane 0: the box loss over all cells. -/
theorem lane0_total : acc m c 1599 last_lt (ix2 (0 : Fin 1) (0 : Fin 128)) = boxLoss (V m c main_v0) (V m c main_v1) := by
  rw [acc_last m c 0 (fun x0 x1 => Ideal.ofBits .f32 0x40A00000#32 * blkBox x0 x1) (fun x0 x1 a => step_lane0 x0 x1 a)]
  unfold boxLoss
  rw [sum_rows, YoloSum.mul_sum_of_nonneg_ne_top _ _ YoloSum.five_nonneg YoloSum.five_ne_top]
  refine Finset.sum_congr rfl fun t _ => ?_
  show Ideal.ofBits .f32 0x40A00000#32 * blkBox (iblk m c 0 t) (iblk m c 1 t) = _
  rw [blkBox_iblk]

/-- Lane 1: the object loss over all cells. -/
theorem lane1_total : acc m c 1599 last_lt (ix2 (0 : Fin 1) (1 : Fin 128)) = objLoss (V m c main_v0) (V m c main_v1) := by
  rw [acc_last m c 1 (fun x0 x1 => blkObj x0 x1) (fun x0 x1 a => step_lane1 x0 x1 a)]
  unfold objLoss
  rw [sum_rows]
  refine Finset.sum_congr rfl fun t _ => ?_
  show blkObj (iblk m c 0 t) (iblk m c 1 t) = _
  rw [blkObj_iblk]

/-- Lane 2: the no-object loss over all cells. -/
theorem lane2_total : acc m c 1599 last_lt (ix2 (0 : Fin 1) (2 : Fin 128)) = noobjLoss (V m c main_v0) (V m c main_v1) := by
  rw [acc_last m c 2 (fun x0 x1 => Ideal.ofBits .f32 0x3F000000#32 * blkNoobj x0 x1) (fun x0 x1 a => step_lane2 x0 x1 a)]
  unfold noobjLoss
  rw [sum_rows, YoloSum.mul_sum_of_nonneg_ne_top _ _ YoloSum.half_nonneg YoloSum.half_ne_top]
  refine Finset.sum_congr rfl fun t _ => ?_
  show Ideal.ofBits .f32 0x3F000000#32 * blkNoobj (iblk m c 0 t) (iblk m c 1 t) = _
  rw [blkNoobj_iblk]

end Losses

end Cert.KernelIdeal.Acc

end
-- ==== Proof.RefValue.lean ====
/-
  The reference's three losses are the specification's.

  The reference slices the confidence column and the four coordinate columns out of the [65536,10,10,5]
  arguments and reduces over all three cell axes.  Every entry it reads is an entry of the argument reshaped to
  [6553600,5] — cell (b, h, w) is row (b·10 + h)·10 + w, the same row-major position — so at each cell its masked
  terms are the specification's terms of that row, and its sums over (b, h, w) are the sums over all rows.
-/
import proofs.«140411_j43190191128633_2_alg».proof.Proof.Gen.ReferenceIdeal.Read
import proofs.«140411_j43190191128633_2_alg».proof.Proof.Gen.KernelIdeal
import proofs.«140411_j43190191128633_2_alg».proof.Proof.Spec
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read
open Cert.KernelIdeal.Acc (cellMask cellConf cellBox boxTerm objTerm noobjTerm boxLoss objLoss noobjLoss)

/-- An argument array's contents. -/
abbrev Arr : Type := (⟨S65536x10x10x5, .f32⟩ : BufTy).Contents (Elt Ideal)

/-- An argument reshaped to one row per grid cell. -/
def flat (x : Arr) : FVec Ideal Cert.KernelIdeal.S6553600x5 .f32 :=
  shapeCast Cert.KernelIdeal.S6553600x5 x Cert.KernelIdeal.Gen.shapeCasts_S65536x10x10x5_S6553600x5

theorem numel_cells : S65536x10x10.numel = 6553600 := by decide

/-- A cell's row: its row-major position among the cells. -/
def cellIdx : S65536x10x10.Idx ≃ Fin 6553600 := S65536x10x10.rowMajor.trans (finCongr numel_cells)

theorem cellIdx_val (j : S65536x10x10.Idx) :
    (cellIdx j).val = ((j 0).val * 10 + (j 1).val) * 10 + (j 2).val := by
  show (S65536x10x10.rowMajor j).val = _
  rw [Shape.rowMajor_val_three]; rfl

/-- An entry of the argument at the row-major position of (row, column) is that entry of the reshaped array. -/
theorem flat_apply (x : Arr) (r : Fin 6553600) (k : Fin 5) (i4 : S65536x10x10x5.Idx)
    (h : (((i4 0).val * 10 + (i4 1).val) * 10 + (i4 2).val) * 5 + (i4 3).val = r.val * 5 + k.val) :
    x i4 = flat x (ix2 r k) := by
  unfold flat
  refine (shapeCast_apply x _ (ix2 r k) i4 ?_).symm
  rw [Shape.rowMajor_val_four, Shape.rowMajor_val_two]
  exact h

section Cell
variable (x0 x1 : Arr) (j : S65536x10x10.Idx)

/-- The confidence column read through the slice and the reshape (three spellings of the same read). -/
theorem conf_v01 : x1 (idx_main_v0 (idx_main_v1 j)) = flat x1 (ix2 (cellIdx j) (0 : Fin 5)) := by
  refine flat_apply x1 (cellIdx j) 0 _ ?_
  have h0 : (j 0).val < 65536 := (j 0).isLt
  have h1 : (j 1).val < 10 := (j 1).isLt
  have h2 : (j 2).val < 10 := (j 2).isLt
  rw [cellIdx_val]
  show (((((j 0).val * 10 + (j 1).val) * 10 + (j 2).val) / 100 * 10
      + (((j 0).val * 10 + (j 1).val) * 10 + (j 2).val) / 10 % 10) * 10
      + (((j 0).val * 10 + (j 1).val) * 10 + (j 2).val) / 1 % 10) * 5 + 0
    = (((j 0).val * 10 + (j 1).val) * 10 + (j 2).val) * 5 + 0
  omega

theorem conf_v23 : x0 (idx_main_v2 (idx_main_v3 j)) = flat x0 (ix2 (cellIdx j) (0 : Fin 5)) := by
  refine flat_apply x0 (cellIdx j) 0 _ ?_
  have h0 : (j 0).val < 65536 := (j 0).isLt
  have h1 : (j 1).val < 10 := (j 1).isLt
  have h2 : (j 2).val < 10 := (j 2).isLt
  rw [cellIdx_val]
  show (((((j 0).val * 10 + (j 1).val) * 10 + (j 2).val) / 100 * 10
      + (((j 0).val * 10 + (j 1).val) * 10 + (j 2).val) / 10 % 10) * 10
      + (((j 0).val * 10 + (j 1).val) * 10 + (j 2).val) / 1 % 10) * 5 + 0
    = (((j 0).val * 10 + (j 1).val) * 10 + (j 2).val) * 5 + 0
  omega

theorem conf_v67 : x1 (idx_main_v6 (idx_main_v7 j)) = flat x1 (ix2 (cellIdx j) (0 : Fin 5)) := by
  refine flat_apply x1 (cellIdx j) 0 _ ?_
  have h0 : (j 0).val < 65536 := (j 0).isLt
  have h1 : (j 1).val < 10 := (j 1).isLt
  have h2 : (j 2).val < 10 := (j 2).isLt
  rw [cellIdx_val]
  show (((((j 0).val * 10 + (j 1).val) * 10 + (j 2).val) / 100 * 10
      + (((j 0).val * 10 + (j 1).val) * 10 + (j 2).val) / 10 % 10) * 10
      + (((j 0).val * 10 + (j 1).val) * 10 + (j 2).val) / 1 % 10) * 5 + 0
    = (((j 0).val * 10 + (j 1).val) * 10 + (j 2).val) * 5 + 0
  omega

/-- A coordinate column read through the slice. -/
theorem coord_v10 (k : Fin 4) : x1 (idx_main_v10 (idx_main_v14 j k)) = flat x1 (ix2 (cellIdx j) k.succ) := by
  refine flat_apply x1 (cellIdx j) k.succ _ ?_
  rw [cellIdx_val, Fin.val_succ]
  show (((j 0).val * 10 + (j 1).val) * 10 + (j 2).val) * 5 + (1 + k.val)
    = (((j 0).val * 10 + (j 1).val) * 10 + (j 2).val) * 5 + (k.val + 1)
  omega

theorem coord_v11 (k : Fin 4) : x0 (idx_main_v11 (idx_main_v14 j k)) = flat x0 (ix2 (cellIdx j) k.succ) := by
  refine flat_apply x0 (cellIdx j) k.succ _ ?_
  rw [cellIdx_val, Fin.val_succ]
  show (((j 0).val * 10 + (j 1).val) * 10 + (j 2).val) * 5 + (1 + k.val)
    = (((j 0).val * 10 + (j 1).val) * 10 + (j 2).val) * 5 + (k.val + 1)
  omega

/-- The reference's mask at a cell. -/
theorem mask_apply : val_main_v9 (F := Ideal) x1 j = cellMask (flat x1) (cellIdx j) := by
  rw [val_main_v9_apply, val_main_v7_apply, val_main_v6_apply, val_main_v8_apply, val_main_cst_apply, conf_v67 x1 j]
  rfl

/-- The reference's squared confidence error at a cell. -/
theorem conf_apply : val_main_v5 (F := Ideal) x0 x1 j = cellConf (flat x0) (flat x1) (cellIdx j) := by
  rw [val_main_v5_apply, val_main_v4_apply, val_main_v1_apply, val_main_v0_apply, val_main_v3_apply, val_main_v2_apply,
    conf_v01 x1 j, conf_v23 x0 j]
  rfl

/-- The reference's box term at a cell. -/
theorem box_apply : val_main_v14 (F := Ideal) x0 x1 j = cellBox (flat x0) (flat x1) (cellIdx j) := by
  rw [val_main_v14_apply, val_main_cst_0_apply]
  unfold cellBox
  rw [show FloatOps.ofBits (F := Ideal) .f32 0x00000000#32 = (0 : EReal) from Ideal.ofBits_zero_f32, zero_add]
  refine Finset.sum_congr rfl fun k _ => ?_
  rw [val_main_v13_apply, val_main_v12_apply, val_main_v10_apply, val_main_v11_apply, coord_v10 x1 j k, coord_v11 x0 j k]
  rfl

theorem zero_f32 : FloatOps.ofBits (F := Ideal) .f32 0x00000000#32 = (0 : EReal) := Ideal.ofBits_zero_f32

/-- The three masked terms at a cell. -/
theorem boxTerm_apply : val_main_v15 (F := Ideal) x0 x1 j = boxTerm (flat x0) (flat x1) (cellIdx j) := by
  rw [val_main_v15_apply, mask_apply, box_apply, val_main_call0_v1_apply, val_main_call0_v0_apply, val_main_cst_1_apply,
    zero_f32]
  rfl

theorem objTerm_apply : val_main_v18 (F := Ideal) x0 x1 j = objTerm (flat x0) (flat x1) (cellIdx j) := by
  rw [val_main_v18_apply, mask_apply, conf_apply, val_main_call1_v1_apply, val_main_call1_v0_apply, val_main_cst_4_apply,
    zero_f32]
  rfl

theorem noobjTerm_apply : val_main_v20 (F := Ideal) x0 x1 j = noobjTerm (flat x0) (flat x1) (cellIdx j) := by
  rw [val_main_v20_apply, mask_apply, conf_apply, val_main_call2_v1_apply, val_main_call2_v0_apply, val_main_cst_6_apply,
    zero_f32]
  rfl

end Cell

section Losses
variable (x0 x1 : Arr)

/-- A sum over the cells is the sum over the rows. -/
theorem sum_cells (g : Fin 6553600 → EReal) : ∑ j : S65536x10x10.Idx, g (cellIdx j) = ∑ r : Fin 6553600, g r :=
  Equiv.sum_comp cellIdx g

/-- The reference's box loss. -/
theorem v17_eq (i : S_.Idx) : val_main_v17 (F := Ideal) x0 x1 i = boxLoss (flat x0) (flat x1) := by
  rw [val_main_v17_apply, val_main_cst_3_apply, val_main_v16_apply, val_main_cst_2_apply, zero_f32, zero_add]
  unfold boxLoss
  refine congrArg (Ideal.ofBits .f32 0x40A00000#32 * ·) ?_
  rw [← sum_cells (boxTerm (flat x0) (flat x1))]
  exact Finset.sum_congr rfl fun j _ => boxTerm_apply x0 x1 j

/-- The reference's object loss. -/
theorem v19_eq (i : S_.Idx) : val_main_v19 (F := Ideal) x0 x1 i = objLoss (flat x0) (flat x1) := by
  rw [val_main_v19_apply, val_main_cst_5_apply, zero_f32, zero_add]
  unfold objLoss
  rw [← sum_cells (objTerm (flat x0) (flat x1))]
  exact Finset.sum_congr rfl fun j _ => objTerm_apply x0 x1 j

/-- The reference's no-object loss. -/
theorem v22_eq (i : S_.Idx) : val_main_v22 (F := Ideal) x0 x1 i = noobjLoss (flat x0) (flat x1) := by
  rw [val_main_v22_apply, val_main_cst_8_apply, val_main_v21_apply, val_main_cst_7_apply, zero_f32, zero_add]
  unfold noobjLoss
  refine congrArg (Ideal.ofBits .f32 0x3F000000#32 * ·) ?_
  rw [← sum_cells (noobjTerm (flat x0) (flat x1))]
  exact Finset.sum_congr rfl fun j _ => noobjTerm_apply x0 x1 j

/-- The reference's total. -/
theorem v24_eq (i : S_.Idx) : val_main_v24 (F := Ideal) x0 x1 i
    = boxLoss (flat x0) (flat x1) + objLoss (flat x0) (flat x1) + noobjLoss (flat x0) (flat x1) := by
  rw [val_main_v24_apply, val_main_v23_apply, v17_eq, v19_eq, v22_eq]
  rfl

end Losses

end Cert.ReferenceIdeal.RefValue

end
-- ==== Proof.Bridge.lean ====
/-
  The kernel's four results are the three losses and their sum.

  Lane 0, 1, 2 of the final accumulator are the box, object and no-object losses over all cells of the arrays the
  region finds, which are the host's reshapes of the two arguments; the fourth result is their sum in the host's
  order (box + object) + no-object.
-/
import proofs.«140411_j43190191128633_2_alg».proof.Proof.KernelRun
import proofs.«140411_j43190191128633_2_alg».proof.Proof.Totals
import proofs.«140411_j43190191128633_2_alg».proof.Proof.RefValue

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen
open Cert.ReferenceIdeal.RefValue (flat)

variable (m : (ℓ : Loc nD τ sig) → Buf (Elt Ideal) ℓ) (c : Dev nD)

/-- The predictions and the targets, one row per cell. -/
abbrev P : FVec Ideal S6553600x5 .f32 := flat (m ((c : Thread nD τ).loc main_arg0))
abbrev T : FVec Ideal S6553600x5 .f32 := flat (m ((c : Thread nD τ).loc main_arg1))

theorem V_P : (V m c main_v0 : S6553600x5.Idx → Elt Ideal .f32) = P m c := V_v0 m c
theorem V_T : (V m c main_v1 : S6553600x5.Idx → Elt Ideal .f32) = T m c := V_v1 m c

theorem lane0_eq (i : S_.Idx) : lane0 m c i = boxLoss (P m c) (T m c) := by
  rw [lane0_apply, ← V_P, ← V_T]; exact lane0_total m c

theorem lane1_eq (i : S_.Idx) : lane1 m c i = objLoss (P m c) (T m c) := by
  rw [lane1_apply, ← V_P, ← V_T]; exact lane1_total m c

theorem lane2_eq (i : S_.Idx) : lane2 m c i = noobjLoss (P m c) (T m c) := by
  rw [lane2_apply, ← V_P, ← V_T]; exact lane2_total m c

theorem total_eq (i : S_.Idx) :
    total m c i = boxLoss (P m c) (T m c) + objLoss (P m c) (T m c) + noobjLoss (P m c) (T m c) := by
  unfold total
  rw [← lane0_eq m c i, ← lane1_eq m c i, ← lane2_eq m c i]
  rfl

end Cert.KernelIdeal.Acc

end
-- ==== Proof.lean ====
/-
  The kernel and its reference compute the same four losses.

  Both programs take predictions and targets over a 65536 × 10 × 10 grid of cells with five channels and return
  the total loss and its three parts: 5 × the sum over object cells of the squared box error, the sum over object
  cells of the squared confidence error, and ½ × the sum over the other cells of the squared confidence error, a
  cell being an object cell when its target confidence is exactly 1.  The reference reduces over all cells at once
  and scales the totals; the kernel walks the cells in 1600 blocks of 4096 rows, scales each block's partial sums
  and accumulates them.  On the extended reals the two agree for all inputs: a non-negative finite weight
  distributes over a sum term by term, and a sum over all rows is the sum over the blocks of the sums over each
  block's rows.  The idealization rewrote nothing, so the `preserves` conjunct is trivial.
-/
import proofs.«140411_j43190191128633_2_alg».proof.Defs
import proofs.«140411_j43190191128633_2_alg».proof.Proof.Gen.Kernel
import proofs.«140411_j43190191128633_2_alg».proof.Proof.Gen.Kernel.Skeleton
import proofs.«140411_j43190191128633_2_alg».proof.Proof.Gen.Kernel.Launch
import proofs.«140411_j43190191128633_2_alg».proof.Proof.Gen.Kernel.Points
import proofs.«140411_j43190191128633_2_alg».proof.Proof.Gen.Kernel.Frame
import proofs.«140411_j43190191128633_2_alg».proof.Proof.Gen.KernelIdeal
import proofs.«140411_j43190191128633_2_alg».proof.Proof.Gen.KernelIdeal.Skeleton
import proofs.«140411_j43190191128633_2_alg».proof.Proof.Gen.KernelIdeal.Launch
import proofs.«140411_j43190191128633_2_alg».proof.Proof.Gen.KernelIdeal.Points
import proofs.«140411_j43190191128633_2_alg».proof.Proof.Gen.KernelIdeal.Frame
import proofs.«140411_j43190191128633_2_alg».proof.Proof.Gen.ReferenceIdeal
import proofs.«140411_j43190191128633_2_alg».proof.Proof.Gen.Pre_finite_inputs
import proofs.«140411_j43190191128633_2_alg».proof.Proof.Gen.ReferenceIdeal.Run
import proofs.«140411_j43190191128633_2_alg».proof.Proof.Gen.ReferenceIdeal.Read
import proofs.«140411_j43190191128633_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => ⟨(h c).2.2.2.2.1, (h c).2.2.2.2.2⟩)
    (Cert.ReferenceIdeal.Value.run (F := Ideal) m ρ)

theorem preserves : Cert.preserves_Kernel_KernelIdeal := trivial

/-- Both programs end with the same four scalars: each of the reference's results is the specification's loss of
    its arguments reshaped to one row per cell, and so is the kernel's, of arguments that agree. -/
theorem algebraic : Cert.algebraic_KernelIdeal_ReferenceIdeal := by
  intro m ρ m' ρ' _ hagree
  refine ⟨fun c => Cert.KernelIdeal.Acc.total m c, fun c => Cert.KernelIdeal.Acc.lane0 m c,
    fun c => Cert.KernelIdeal.Acc.lane1 m c, fun c => Cert.KernelIdeal.Acc.lane2 m c,
    Cert.KernelIdeal.Acc.run m ρ, ?_⟩
  refine (θ_run Cert.ReferenceIdeal.defs _ _).mono (fun _ h c => ?_) (Cert.ReferenceIdeal.Value.run (F := Ideal) m' ρ')
  obtain ⟨h24, h17, h19, h22, ha0, ha1⟩ := h c
  have e0 := (hagree c).1
  have e1 := (hagree c).2
  refine ⟨h24.trans ?_, h17.trans ?_, h19.trans ?_, h22.trans ?_, ha0, ha1⟩
  · rw [Cert.ReferenceIdeal.Read.val_main_v24_eq, e0, e1]
    funext i
    rw [Cert.ReferenceIdeal.RefValue.v24_eq]
    exact (Cert.KernelIdeal.Acc.total_eq m c i).symm
  · rw [Cert.ReferenceIdeal.Read.val_main_v17_eq, e0, e1]
    funext i
    rw [Cert.ReferenceIdeal.RefValue.v17_eq]
    exact (Cert.KernelIdeal.Acc.lane0_eq m c i).symm
  · rw [Cert.ReferenceIdeal.Read.val_main_v19_eq, e0, e1]
    funext i
    rw [Cert.ReferenceIdeal.RefValue.v19_eq]
    exact (Cert.KernelIdeal.Acc.lane1_eq m c i).symm
  · rw [Cert.ReferenceIdeal.Read.val_main_v22_eq, e0, e1]
    funext i
    rw [Cert.ReferenceIdeal.RefValue.v22_eq]
    exact (Cert.KernelIdeal.Acc.lane2_eq m c i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
